-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S3072x1024 : Shape := ⟨2, ![3072, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_

variable [Facts]

def fn {F : FTy → Type} [FloatOps F] (main_arg0 : FVec F S8x4096x1024 .f32) (main_arg1 : FVec F S3072x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  main_v8
-- ==== Kernel.lean ====
abbrev S8x4096x1024 : Shape := ⟨3, ![8, 4096, 1024]⟩
abbrev S3072x1024 : Shape := ⟨2, ![3072, 1024]⟩
abbrev S8x16x4096x64 : Shape := ⟨4, ![8, 16, 4096, 64]⟩
abbrev S1x256x1024 : Shape := ⟨3, ![1, 256, 1024]⟩
abbrev S1x16x256x64 : Shape := ⟨4, ![1, 16, 256, 64]⟩
abbrev S256x1024 : Shape := ⟨2, ![256, 1024]⟩
abbrev S256x3072 : Shape := ⟨2, ![256, 3072]⟩
abbrev S256x16x64 : Shape := ⟨3, ![256, 16, 64]⟩
abbrev S16x256x64 : Shape := ⟨3, ![16, 256, 64]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S3072x1024, .f32⟩
  | .hbm, ⟨2, _⟩ => ⟨S3072x1024, .bf16⟩
  | .hbm, ⟨3, _⟩ => ⟨S8x16x4096x64, .f32⟩
  | .hbm, ⟨4, _⟩ => ⟨S8x16x4096x64, .f32⟩
  | .hbm, ⟨5, _⟩ => ⟨S8x16x4096x64, .f32⟩
  | .local _ .vmem, ⟨0, _⟩ => ⟨S1x256x1024, .f32⟩
  | .local _ .vmem, ⟨1, _⟩ => ⟨S1x256x1024, .f32⟩
  | .local _ .vmem, ⟨2, _⟩ => ⟨S3072x1024, .bf16⟩
  | .local _ .vmem, ⟨3, _⟩ => ⟨S1x16x256x64, .f32⟩
  | .local _ .vmem, ⟨4, _⟩ => ⟨S1x16x256x64, .f32⟩
  | .local _ .vmem, ⟨5, _⟩ => ⟨S1x16x256x64, .f32⟩
  | .local _ .vmem, ⟨6, _⟩ => ⟨S1x16x256x64, .f32⟩
  | .local _ .vmem, ⟨7, _⟩ => ⟨S1x16x256x64, .f32⟩
  | .local _ .vmem, ⟨8, _⟩ => ⟨S1x16x256x64, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S256x3072_o0_0_S256x1024 : S256x3072.Slices ![0, 0] S256x1024
  shapeCasts_S256x1024_S256x16x64 : S256x1024.ShapeCasts S256x16x64
  transposes_S256x16x64_p1_0_2_S16x256x64 : S256x16x64.Transposes [1, 0, 2] S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S1x16x256x64 : S16x256x64.ShapeCasts S1x16x256x64
  slices_S256x3072_o0_1024_S256x1024 : S256x3072.Slices ![0, 1024] S256x1024
  slices_S256x3072_o0_2048_S256x1024 : S256x3072.Slices ![0, 2048] S256x1024
  dot_S256x1024_S3072x1024_S256x3072_1_1_0_0_n_n_wf : DotDims.WF S256x1024 S3072x1024 S256x3072 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x4096x1024.size a
  hwx0_0 : ∀ i : grid0.Coords, EltTy.bits .f32 = 32 ∨ (Rect.block (s := S8x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x64.size a ≤ S8x16x4096x64.size a
  hwx0_2 : ∀ i : grid0.Coords, EltTy.bits .f32 = 32 ∨ (Rect.block (s := S8x16x4096x64) S1x16x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x64.size a ≤ S8x16x4096x64.size a
  hwx0_3 : ∀ i : grid0.Coords, EltTy.bits .f32 = 32 ∨ (Rect.block (s := S8x16x4096x64) S1x16x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S8x16x4096x64.size a
  hwx0_4 : ∀ i : grid0.Coords, EltTy.bits .f32 = 32 ∨ (Rect.block (s := S8x16x4096x64) S1x16x256x64.size (cc0_transform_4 i) (hinb0_4 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x16x256x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x16x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x16x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S3072x1024 : Shape := ⟨2, ![3072, 1024]⟩
abbrev S8x4096x3072 : Shape := ⟨3, ![8, 4096, 3072]⟩
abbrev S8x4096x16x64 : Shape := ⟨4, ![8, 4096, 16, 64]⟩
abbrev S8x16x4096x64 : Shape := ⟨4, ![8, 16, 4096, 64]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S3072x1024, .f32⟩
  | .hbm, ⟨2, _⟩ => ⟨S8x4096x3072, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x4096x16x64, .f32⟩
  | .hbm, ⟨7, _⟩ => ⟨S8x16x4096x64, .f32⟩
  | .hbm, ⟨8, _⟩ => ⟨S8x4096x16x64, .f32⟩
  | .hbm, ⟨9, _⟩ => ⟨S8x16x4096x64, .f32⟩
  | .hbm, ⟨10, _⟩ => ⟨S8x4096x16x64, .f32⟩
  | .hbm, ⟨11, _⟩ => ⟨S8x16x4096x64, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]

class Facts₀ : Prop where
  slices_S8x4096x3072_S8x4096x1024_0_0_0 : S8x4096x3072.Slices ![0, 0, 0] S8x4096x1024
  slices_S8x4096x3072_S8x4096x1024_0_0_1024 : S8x4096x3072.Slices ![0, 0, 1024] S8x4096x1024
  slices_S8x4096x3072_S8x4096x1024_0_0_2048 : S8x4096x3072.Slices ![0, 0, 2048] S8x4096x1024
  shapeCasts_S8x4096x1024_S8x4096x16x64 : S8x4096x1024.ShapeCasts S8x4096x16x64
  transposes_S8x4096x16x64_S8x16x4096x64_0_2_1_3 : S8x4096x16x64.Transposes [0, 2, 1, 3] S8x16x4096x64
  dot_S8x4096x1024_S3072x1024_S8x4096x3072_2_1_01_0_n_n_wf : DotDims.WF S8x4096x1024 S3072x1024 S8x4096x3072 [2] [1] [0, 1] [0] [] []

variable [Facts₀]

def dot_S8x4096x1024_S3072x1024_S8x4096x3072_2_1_01_0_n_n : DotDims S8x4096x1024 S3072x1024 S8x4096x3072 where
  lhsContracting := [2]
  rhsContracting := [1]
  lhsNonContracting := [0, 1]
  rhsNonContracting := [0]
  lhsBatch := []
  rhsBatch := []
  wf := dot_S8x4096x1024_S3072x1024_S8x4096x3072_2_1_01_0_n_n_wf

class Facts : Prop extends Facts₀ where

variable [Facts]
-- ==== Proof.HeadsSpec.lean ====
/-
  The fused query / key / value projection, laid out head by head: the one function both programs compute.

  An activation array x of shape [8, 4096, 1024] (batch, position, model dimension) meets a weight matrix W of shape
  [3072, 1024] whose rows are three stacked blocks of 1024 — the query, key and value projections — each block being
  16 heads of 64 channels. Projection s (0, 1 or 2), head h, channel d is therefore row s * 1024 + h * 64 + d of W, and
  the result array of projection s, of shape [8, 16, 4096, 64] (batch, head, position, channel), holds at (b, h, n, d)

      sum over k < 1024 of  x[b, n, k] * W[s * 1024 + h * 64 + d, k]

  on the extended reals. Nothing here depends on an order of summation: addition of extended reals is commutative and
  associative, so the finite sum is one value however a program groups or tiles it.
-/
import Idealize.ShloMosaic.PureOps.Ideal
import Idealize.ShloMosaic.Lib.ValueIdx

noncomputable section

open scoped BigOperators

namespace Cert.QkvHeads

open Idealize.ShloMosaic Idealize.ShloMosaic.ValueIdx

/-- Activations: batch × position × model dimension. -/
abbrev Acts : Shape := ⟨3, ![8, 4096, 1024]⟩
/-- Weights: (projection, head, channel) flattened into 3072 rows × model dimension. -/
abbrev Weights : Shape := ⟨2, ![3072, 1024]⟩
/-- One projection's result: batch × head × position × channel. -/
abbrev Heads : Shape := ⟨4, ![8, 16, 4096, 64]⟩

/-- The row of the weight matrix that produces channel `d` of head `h` in projection `s`. -/
def wrow (s : Fin 3) (h : Fin 16) (d : Fin 64) : Fin 3072 :=
  ⟨s.val * 1024 + (h.val * 64 + d.val), by have := s.isLt; have := h.isLt; have := d.isLt; omega⟩

theorem wrow_val (s : Fin 3) (h : Fin 16) (d : Fin 64) : (wrow s h d).val = s.val * 1024 + (h.val * 64 + d.val) := rfl

/-- Entry (b, h, n, d) of projection `s`: the inner product of position `n`'s activations with that weight row. -/
def entry (s : Fin 3) (x : FVec Ideal Acts .f32) (W : FVec Ideal Weights .f32)
    (b : Fin 8) (h : Fin 16) (n : Fin 4096) (d : Fin 64) : EReal :=
  ∑ k : Fin 1024, x (ix3 b n k) * W (ix2 (wrow s h d) k)

/-- Projection `s` as a whole array. -/
def heads (s : Fin 3) (x : FVec Ideal Acts .f32) (W : FVec Ideal Weights .f32) : FVec Ideal Heads .f32 :=
  fun i => entry s x W (i 0) (i 1) (i 2) (i 3)

theorem heads_ix4 (s : Fin 3) (x : FVec Ideal Acts .f32) (W : FVec Ideal Weights .f32)
    (b : Fin 8) (h : Fin 16) (n : Fin 4096) (d : Fin 64) : heads s x W (ix4 b h n d) = entry s x W b h n d := rfl

/-- Two arrays of the result's shape are equal when they agree at every (b, h, n, d). -/
theorem ext_heads {A B : FVec Ideal Heads .f32}
    (h : ∀ (b : Fin 8) (h : Fin 16) (n : Fin 4096) (d : Fin 64), A (ix4 b h n d) = B (ix4 b h n d)) : A = B := by
  funext i
  rw [eq_ix4 i]
  exact h _ _ _ _

end Cert.QkvHeads

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.MatmulEntry.lean ====
/-
  The kernel's matrix product, read at an entry of a tile.

  At a grid point the body holds one tile of activations, P0 of shape [1, 256, 1024] (one batch element, 256 positions), and
  the whole weight matrix P1 of shape [3072, 1024]. It drops the tile's unit axis, and multiplies along the last axis of
  both from the zero accumulator: a [256, 3072] array whose entry (r, e) is the sum over k of P0[0, r, k] * P1[e, k] (the
  change of float format on the way in is the identity on extended reals, and 0 + s = s). When the tile is rows
  q * 256 … q * 256 + 255 of batch element b of the activations and P1 is the weights, entry (r, s * 1024 + h * 64 + d)
  is the specification's entry (b, h, q * 256 + r, d) of projection s.
-/
import proofs.«124951_j53575422050708_2_alg».proof.Proof.Gen.KernelIdeal.Skeleton
import proofs.«124951_j53575422050708_2_alg».proof.Proof.HeadsSpec
import proofs.«124951_j53575422050708_2_alg».proof.Proof.LibDotLastAxes
import Idealize.ShloMosaic.Lib.Pipeline.Value
import Idealize.ShloMosaic.Lib.ValueLayout

noncomputable section

open scoped BigOperators

namespace Cert.KernelIdeal.MatmulEntry

open Cert.KernelIdeal Cert.KernelIdeal.Gen Idealize.ShloMosaic Idealize.ShloMosaic.ValueIdx Cert.QkvHeads

/-! ## Which operand coordinate is which, for the body's dimension numbers ([1] × [1] contracted, [0] and [0] kept) -/

theorem lhs_row (j : S256x3072.Idx) (q : dot_S256x1024_S3072x1024_S256x3072_1_1_0_0_n_n.contr.Idx) :
    (dot_S256x1024_S3072x1024_S256x3072_1_1_0_0_n_n.lhsIdx j q 0).val = (j 0).val := by
  unfold DotDims.lhsIdx
  rw [dif_neg (show ¬(0 : Fin S256x1024.rank) ∈ dot_S256x1024_S3072x1024_S256x3072_1_1_0_0_n_n.lhsBatch by decide),
    dif_pos (show (0 : Fin S256x1024.rank) ∈ dot_S256x1024_S3072x1024_S256x3072_1_1_0_0_n_n.lhsNonContracting by decide)]
  rfl

theorem lhs_contr (j : S256x3072.Idx) (q : dot_S256x1024_S3072x1024_S256x3072_1_1_0_0_n_n.contr.Idx) :
    (dot_S256x1024_S3072x1024_S256x3072_1_1_0_0_n_n.lhsIdx j q 1).val = (q ⟨0, by decide⟩).val :=
  dot_S256x1024_S3072x1024_S256x3072_1_1_0_0_n_n.lhsIdx_val_of_single rfl j q

theorem rhs_row (j : S256x3072.Idx) (q : dot_S256x1024_S3072x1024_S256x3072_1_1_0_0_n_n.contr.Idx) :
    (dot_S256x1024_S3072x1024_S256x3072_1_1_0_0_n_n.rhsIdx j q 0).val = (j 1).val := by
  unfold DotDims.rhsIdx
  rw [dif_neg (show ¬(0 : Fin S3072x1024.rank) ∈ dot_S256x1024_S3072x1024_S256x3072_1_1_0_0_n_n.rhsBatch by decide),
    dif_pos (show (0 : Fin S3072x1024.rank) ∈ dot_S256x1024_S3072x1024_S256x3072_1_1_0_0_n_n.rhsNonContracting by decide)]
  rfl

theorem rhs_contr (j : S256x3072.Idx) (q : dot_S256x1024_S3072x1024_S256x3072_1_1_0_0_n_n.contr.Idx) :
    (dot_S256x1024_S3072x1024_S256x3072_1_1_0_0_n_n.rhsIdx j q 1).val = (q ⟨0, by decide⟩).val :=
  dot_S256x1024_S3072x1024_S256x3072_1_1_0_0_n_n.rhsIdx_val_of_single rfl j q

/-! ## The product at an entry -/

/-- Entry (r, e) of the body's product: the inner product of row r of the tile with row e of the weights. -/
theorem product_at (P0 : Vec Ideal S1x256x1024 .f32) (P1 : Vec Ideal S3072x1024 .bf16) (r : Fin 256) (e : Fin 3072) :
    k0_pay1 (F := Ideal) P0 P1 (ix2 r e) = ∑ k : Fin 1024, P0 (ix3 (0 : Fin 1) r k) * P1 (ix2 e k) := by
  unfold k0_pay1
  refine (DotLastAxes.matmul_zero_apply dot_S256x1024_S3072x1024_S256x3072_1_1_0_0_n_n rfl rfl
    lhs_row lhs_contr rhs_row rhs_contr none _ _ r e).trans ?_
  refine Finset.sum_congr rfl fun k _ => ?_
  rw [shapeCast_self]
  show (shapeCast S256x1024 P0 shapeCasts_S1x256x1024_S256x1024) (ix2 r k) * P1 (ix2 e k) = _
  rw [shapeCast_1ab_ab_apply]

/-- Position `r` of tile `q` along the 4096 positions. -/
def tileRow (q : Fin 16) (r : Fin 256) : Fin 4096 := ⟨q.val * 256 + r.val, by have := q.isLt; have := r.isLt; omega⟩

theorem tileRow_val (q : Fin 16) (r : Fin 256) : (tileRow q r).val = q.val * 256 + r.val := rfl

/-- When the tile is positions q * 256 … of batch element b and the second operand is the weights, the product's entry
    (r, row of (s, h, d)) is the specification's entry (b, h, q * 256 + r, d) of projection s. -/
theorem product_is_entry (s : Fin 3) (x : FVec Ideal Acts .f32) (W : FVec Ideal Weights .f32)
    (P0 : Vec Ideal S1x256x1024 .f32) (P1 : Vec Ideal S3072x1024 .bf16) (b : Fin 8) (q : Fin 16)
    (h0 : ∀ (r : Fin 256) (k : Fin 1024), P0 (ix3 (0 : Fin 1) r k) = x (ix3 b (tileRow q r) k))
    (h1 : ∀ (e : Fin 3072) (k : Fin 1024), P1 (ix2 e k) = W (ix2 e k))
    (h : Fin 16) (r : Fin 256) (d : Fin 64) :
    k0_pay1 (F := Ideal) P0 P1 (ix2 r (wrow s h d)) = entry s x W b h (tileRow q r) d := by
  rw [product_at]
  unfold entry
  exact Finset.sum_congr rfl fun k _ => by rw [h0, h1]

end Cert.KernelIdeal.MatmulEntry

end
-- ==== Proof.TileInputs.lean ====
/-
  The two input windows of the kernel at a grid point.

  The grid has 8 × 16 points, one per batch element b and tile q of 256 positions. At a point whose activations' block index
  is (b, q, 0) the activations' window holds x[b, q * 256 … q * 256 + 255, :]: entry (0, r, k) of the tile is
  x[b, q * 256 + r, k] — a block's element sits at block index × block size + its own coordinate on every axis. The weights'
  window has block index (0, 0) at every point and is the whole matrix, as the host left it after changing its float format,
  which on extended reals changes nothing.
-/
import proofs.«124951_j53575422050708_2_alg».proof.Proof.Gen.KernelIdeal.Frame
import proofs.«124951_j53575422050708_2_alg».proof.Proof.MatmulEntry
import Idealize.ShloMosaic.Lib.Pipeline.Value
import Idealize.ShloMosaic.Lib.StableHlo.Run

noncomputable section

open scoped BigOperators

namespace Cert.KernelIdeal.HeadArrays

open Cert.KernelIdeal Cert.KernelIdeal.Gen Cert.KernelIdeal.MatmulEntry
open Idealize.ShloMosaic Idealize.ShloMosaic.TcCoe Idealize.SL.Sem Idealize.ShloMosaic.ValueIdx Cert.QkvHeads
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The two input windows at a grid point -/

/-- The activations' window at a point whose block index is (b, q, 0): entry (0, r, k) of the tile is x[b, q * 256 + r, k]. -/
theorem acts_tile (c : Dev nD) (t : Fin cfg0.N) (b : Fin 8) (q : Fin 16)
    (hb : win0_0.index t (0 : Fin 3) = b.val) (hq : win0_0.index t (1 : Fin 3) = q.val) (hz : win0_0.index t (2 : Fin 3) = 0)
    (r : Fin 256) (k : Fin 1024) :
    (iblk m c 0 t : Vec Ideal S1x256x1024 .f32) (ix3 (0 : Fin 1) r k)
      = (m ((c : Thread nD τ).loc main_arg0) : Acts.Idx → EReal) (ix3 b (tileRow q r) k) := by
  unfold iblk
  rw [View.read_apply]
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * r.val = q.val * 256 + r.val; omega
  | ⟨2, _⟩ => show win0_0.index t (2 : Fin 3) * 1024 + 1 * k.val = k.val; omega

/-- The weights' window is the whole array at every point (block index (0, 0)), and that array is the weights argument
    after the host's change of float format — the identity on extended reals. -/
theorem weights_whole (c : Dev nD) (t : Fin cfg0.N)
    (h0 : win0_1.index t (0 : Fin 2) = 0) (h1 : win0_1.index t (1 : Fin 2) = 0) (e : Fin 3072) (k : Fin 1024) :
    (iblk m c 1 t : Vec Ideal S3072x1024 .bf16) (ix2 e k)
      = (m ((c : Thread nD τ).loc main_arg1) : Weights.Idx → EReal) (ix2 e k) := by
  have host : @Eq (FVec Ideal S3072x1024 .bf16) (V m c main_v0)
      (truncf (F := Ideal) .bf16 (m ((c : Thread nD τ).loc main_arg1) : FVec Ideal S3072x1024 .f32) bitsLt_bf16_f32) := by
    dsimp only [Gen.V, Gen.hostOps0]; after_results <;> rfl
  unfold iblk
  rw [View.read_apply]
  show V m c main_v0 (((cfg0.win 1).blk t).view.emb (ix2 e k)) = _
  rw [host]
  show (m ((c : Thread nD τ).loc main_arg1) : Weights.Idx → EReal) (((cfg0.win 1).blk t).view.emb (ix2 e k)) = _
  refine congrArg _ (funext fun a => Fin.ext ?_)
  match a with
  | ⟨0, _⟩ => show win0_1.index t (0 : Fin 2) * 3072 + 1 * e.val = e.val; omega
  | ⟨1, _⟩ => show win0_1.index t (1 : Fin 2) * 1024 + 1 * k.val = k.val; omega

end Cert.KernelIdeal.HeadArrays

end
-- ==== Proof.QueryArray.lean ====
/-
  The query array after the kernel's run is projection 0 of the specification.

  At grid point (b, q) the body writes, into this result's tile of shape [1, 16, 256, 64], the product's columns
  0 + h * 64 + d (h < 16, d < 64) of row r at tile entry (0, h, r, d): the column block is regrouped into heads and
  the position and head axes are swapped. By the product's entry that is the specification's entry (b, h, q * 256 + r, d) of
  projection 0; the tile is flushed to block (b, 0, q, 0) of the [8, 16, 4096, 64] array, where entry (0, h, r, d) lands on
  index (b, h, q * 256 + r, d); and the 128 blocks tile the array — index (b, h, n, d) lies in the block of (b, n / 256).
  So the array after the run is projection 0, index by index.
-/
import proofs.«124951_j53575422050708_2_alg».proof.Proof.KernelIdealValue
import proofs.«124951_j53575422050708_2_alg».proof.Proof.MatmulEntry
import proofs.«124951_j53575422050708_2_alg».proof.Proof.TileInputs
import Idealize.ShloMosaic.Lib.Pipeline.Value

noncomputable section

open scoped BigOperators

namespace Cert.KernelIdeal.HeadArrays

open Cert.KernelIdeal Cert.KernelIdeal.Gen Cert.KernelIdeal.ValueP Cert.KernelIdeal.MatmulEntry
open Idealize.ShloMosaic Idealize.ShloMosaic.TcCoe Idealize.SL.Sem Idealize.ShloMosaic.ValueIdx Cert.QkvHeads
open Idealize.ShloMosaic.Pipeline (Dat)

variable (m : (ℓ : Loc nD τ sig) → Buf (Elt Ideal) ℓ) (ρ : Dev nD → PrngReg)

/-! ## Output window 2: projection 0 (query) -/

/-- What the body leaves in this output's tile buffer, entry by entry: the product's column block 0 …, regrouped into heads
    and with positions and heads swapped, is the specification's entry — for ANY tile P0 that holds positions q * 256 … of
    batch element b, and any P1 that holds the weights. The index i is where the tile entry y lands in the result array. -/
theorem tile2_is_heads (x : FVec Ideal Acts .f32) (W : FVec Ideal Weights .f32)
    (P0 : Vec Ideal S1x256x1024 .f32) (P1 : Vec Ideal S3072x1024 .bf16) (b : Fin 8) (q : Fin 16)
    (h0 : ∀ (r : Fin 256) (k : Fin 1024), P0 (ix3 (0 : Fin 1) r k) = x (ix3 b (tileRow q r) k))
    (h1 : ∀ (e : Fin 3072) (k : Fin 1024), P1 (ix2 e k) = W (ix2 e k))
    (y : S1x16x256x64.Idx) (i : Heads.Idx)
    (hi0 : (i 0).val = b.val) (hi1 : (i 1).val = (y 1).val) (hi2 : (i 2).val = q.val * 256 + (y 2).val) (hi3 : (i 3).val = (y 3).val) :
    out0_2 (F := Ideal) P0 P1 y = heads 0 x W i := by
  obtain ⟨u, h, r, d, rfl⟩ : ∃ (u : Fin 1) (h : Fin 16) (r : Fin 256) (d : Fin 64), y = ix4 u h r d := ⟨y 0, y 1, y 2, y 3, eq_ix4 y⟩
  obtain rfl : i = ix4 b h (tileRow q r) d := funext fun a => Fin.ext (by
    match a with
    | ⟨0, _⟩ => exact hi0
    | ⟨1, _⟩ => exact hi1
    | ⟨2, _⟩ => exact hi2
    | ⟨3, _⟩ => exact hi3)
  rw [heads_ix4]
  unfold out0_2
  rw [canon2_eq]
  show k0_pay1 (View.ld P0 r0_0) (View.ld P1 r0_1) (ix2_0 (ix4 u h r d)) = _
  rw [View.ld_unit_zero (S := S1x256x1024) zeros3, View.ld_unit_zero (S := S3072x1024) zeros2]
  have e : ix2_0 (ix4 u h r d) = ix2 r (wrow 0 h d) := funext fun a => Fin.ext (by
    match a with
    | ⟨0, _⟩ => rfl
    | ⟨1, _⟩ => show h.val * 64 + d.val = 0 * 1024 + (h.val * 64 + d.val); omega)
  rw [e]
  exact product_is_entry 0 x W P0 P1 b q h0 h1 h r d

/-- The block indices of this output at a grid point, against the activations' and the weights' (decided over the 128 points):
    the output's block is (batch, 0, tile, 0), the activations' is (batch, tile, 0), the weights' is (0, 0). -/
theorem index_facts2 : ∀ t : Fin cfg0.N,
    win0_0.index t (0 : Fin 3) = win0_2.index t (0 : Fin 4) ∧ win0_0.index t (1 : Fin 3) = win0_2.index t (2 : Fin 4)
    ∧ win0_0.index t (2 : Fin 3) = 0 ∧ win0_1.index t (0 : Fin 2) = 0 ∧ win0_1.index t (1 : Fin 2) = 0
    ∧ win0_2.index t (0 : Fin 4) < 8 ∧ win0_2.index t (1 : Fin 4) = 0 ∧ win0_2.index t (2 : Fin 4) < 16 ∧ win0_2.index t (3 : Fin 4) = 0 :=
  (by decide +kernel : ∀ t : Fin grid0.N, _)

/-- Every (batch, tile) pair is some grid point's block. -/
theorem index_onto2 : ∀ (b : Fin 8) (q : Fin 16), ∃ t : Fin cfg0.N,
    win0_2.index t (0 : Fin 4) = b.val ∧ win0_2.index t (2 : Fin 4) = q.val :=
  (by decide +kernel : ∀ (b : Fin 8) (q : Fin 16), ∃ t : Fin grid0.N, win0_2.index t (0 : Fin 4) = b.val ∧ win0_2.index t (2 : Fin 4) = q.val)

/-- WHAT GRID POINT t WRITES BACK is its block of projection 0 of the argument arrays. -/
theorem flushed2_eq (c : Dev nD) (t : Fin cfg0.N) :
    (dats m 0 c).flushed 2 t = ((cfg0.win 2).blk t).view.read (Elt Ideal)
      (heads 0 (m ((c : Thread nD τ).loc main_arg0)) (m ((c : Thread nD τ).loc main_arg1))) := by
  obtain ⟨e00, e01, e02, e10, e11, lb, z1, lq, z3⟩ := index_facts2 t
  rw [flushed2]
  funext y
  have hy0 : (y 0).val < 1 := (y 0).isLt
  show out0_2 (iblk m c 0 t) (iblk m c 1 t) _ = heads 0 (m ((c : Thread nD τ).loc main_arg0)) (m ((c : Thread nD τ).loc main_arg1)) (((cfg0.win 2).blk t).view.emb y)
  refine tile2_is_heads _ _ (iblk m c 0 t) (iblk m c 1 t) ⟨win0_2.index t (0 : Fin 4), lb⟩ ⟨win0_2.index t (2 : Fin 4), lq⟩
    (fun r k => acts_tile m c t _ _ e00 e01 e02 r k) (fun e k => weights_whole m c t e10 e11 e k) _ _ ?_ ?_ ?_ ?_
  · show win0_2.index t (0 : Fin 4) * 1 + 1 * (y 0).val = win0_2.index t (0 : Fin 4); omega
  · show win0_2.index t (1 : Fin 4) * 16 + 1 * (y 1).val = (y 1).val; omega
  · show win0_2.index t (2 : Fin 4) * 256 + 1 * (y 2).val = win0_2.index t (2 : Fin 4) * 256 + (y 2).val; omega
  · show win0_2.index t (3 : Fin 4) * 64 + 1 * (y 3).val = (y 3).val; omega

/-- An index of the result array lies in grid point t's block iff each coordinate lies in the block's range on its axis. -/
theorem mem_block2 (t : Fin cfg0.N) (i : Heads.Idx) :
    i ∈ ((cfg0.win 2).blk t).view.set ↔ ∀ a : Fin 4, win0_2.index t a * S1x16x256x64.size a ≤ (i a).val
      ∧ (i a).val < win0_2.index t a * S1x16x256x64.size a + S1x16x256x64.size a := by
  show i ∈ ((View.whole main_v1_0).slice (win0_2.rect t)).set ↔ _
  rw [View.set_slice_whole, Rect.mem_set_unit]
  exact Iff.rfl

/-- The blocks tile the result array: index (b, h, n, d) lies in the block of batch element b and tile n / 256. -/
theorem cover2 (i : Heads.Idx) : ∃ t : Fin cfg0.N, (cfg0.win 2).flush t = true ∧ i ∈ ((cfg0.win 2).blk t).view.set := by
  have h0 : (i 0).val < 8 := (i 0).isLt
  have h1 : (i 1).val < 16 := (i 1).isLt
  have h2 : (i 2).val < 4096 := (i 2).isLt
  have h3 : (i 3).val < 64 := (i 3).isLt
  obtain ⟨t, tb, tq⟩ := index_onto2 ⟨(i 0).val, h0⟩ ⟨(i 2).val / 256, by omega⟩
  have tb' : win0_2.index t (0 : Fin 4) = (i 0).val := tb
  have tq' : win0_2.index t (2 : Fin 4) = (i 2).val / 256 := tq
  obtain ⟨-, -, -, -, -, -, z1, -, z3⟩ := index_facts2 t
  refine ⟨t, flush0_2 t, ?_⟩
  rw [mem_block2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 64 ≤ (i 3).val ∧ (i 3).val < win0_2.index t (3 : Fin 4) * 64 + 64; omega

/-- So after the run this result array IS projection 0 of the argument arrays. -/
theorem final2 (c : Dev nD) : (dats m 0 c).arrAt 2 cfg0.N
    = heads 0 (m ((c : Thread nD τ).loc main_arg0)) (m ((c : Thread nD τ).loc main_arg1)) :=
  (dats m 0 c).arrAt_eq_of_cover 2 _ (fun t _ => flushed2_eq m c t) cover2

end Cert.KernelIdeal.HeadArrays

end
-- ==== Proof.KeyArray.lean ====
/-
  The key array after the kernel's run is projection 1 of the specification.

  At grid point (b, q) the body writes, into this result's tile of shape [1, 16, 256, 64], the product's columns
  1024 + h * 64 + d (h < 16, d < 64) of row r at tile entry (0, h, r, d): the column block is regrouped into heads and
  the position and head axes are swapped. By the product's entry that is the specification's entry (b, h, q * 256 + r, d) of
  projection 1; the tile is flushed to block (b, 0, q, 0) of the [8, 16, 4096, 64] array, where entry (0, h, r, d) lands on
  index (b, h, q * 256 + r, d); and the 128 blocks tile the array — index (b, h, n, d) lies in the block of (b, n / 256).
  So the array after the run is projection 1, index by index.
-/
import proofs.«124951_j53575422050708_2_alg».proof.Proof.KernelIdealValue
import proofs.«124951_j53575422050708_2_alg».proof.Proof.MatmulEntry
import proofs.«124951_j53575422050708_2_alg».proof.Proof.TileInputs
import Idealize.ShloMosaic.Lib.Pipeline.Value

noncomputable section

open scoped BigOperators

namespace Cert.KernelIdeal.HeadArrays

open Cert.KernelIdeal Cert.KernelIdeal.Gen Cert.KernelIdeal.ValueP Cert.KernelIdeal.MatmulEntry
open Idealize.ShloMosaic Idealize.ShloMosaic.TcCoe Idealize.SL.Sem Idealize.ShloMosaic.ValueIdx Cert.QkvHeads
open Idealize.ShloMosaic.Pipeline (Dat)

variable (m : (ℓ : Loc nD τ sig) → Buf (Elt Ideal) ℓ) (ρ : Dev nD → PrngReg)

/-! ## Output window 3: projection 1 (key) -/

/-- What the body leaves in this output's tile buffer, entry by entry: the product's column block 1024 …, regrouped into heads
    and with positions and heads swapped, is the specification's entry — for ANY tile P0 that holds positions q * 256 … of
    batch element b, and any P1 that holds the weights. The index i is where the tile entry y lands in the result array. -/
theorem tile3_is_heads (x : FVec Ideal Acts .f32) (W : FVec Ideal Weights .f32)
    (P0 : Vec Ideal S1x256x1024 .f32) (P1 : Vec Ideal S3072x1024 .bf16) (b : Fin 8) (q : Fin 16)
    (h0 : ∀ (r : Fin 256) (k : Fin 1024), P0 (ix3 (0 : Fin 1) r k) = x (ix3 b (tileRow q r) k))
    (h1 : ∀ (e : Fin 3072) (k : Fin 1024), P1 (ix2 e k) = W (ix2 e k))
    (y : S1x16x256x64.Idx) (i : Heads.Idx)
    (hi0 : (i 0).val = b.val) (hi1 : (i 1).val = (y 1).val) (hi2 : (i 2).val = q.val * 256 + (y 2).val) (hi3 : (i 3).val = (y 3).val) :
    out0_3 (F := Ideal) P0 P1 y = heads 1 x W i := by
  obtain ⟨u, h, r, d, rfl⟩ : ∃ (u : Fin 1) (h : Fin 16) (r : Fin 256) (d : Fin 64), y = ix4 u h r d := ⟨y 0, y 1, y 2, y 3, eq_ix4 y⟩
  obtain rfl : i = ix4 b h (tileRow q r) d := funext fun a => Fin.ext (by
    match a with
    | ⟨0, _⟩ => exact hi0
    | ⟨1, _⟩ => exact hi1
    | ⟨2, _⟩ => exact hi2
    | ⟨3, _⟩ => exact hi3)
  rw [heads_ix4]
  unfold out0_3
  rw [canon3_eq]
  show k0_pay1 (View.ld P0 r0_0) (View.ld P1 r0_1) (ix3_0 (ix4 u h r d)) = _
  rw [View.ld_unit_zero (S := S1x256x1024) zeros3, View.ld_unit_zero (S := S3072x1024) zeros2]
  have e : ix3_0 (ix4 u h r d) = ix2 r (wrow 1 h d) := funext fun a => Fin.ext (by
    match a with
    | ⟨0, _⟩ => rfl
    | ⟨1, _⟩ => show h.val * 64 + d.val + 1024 = 1 * 1024 + (h.val * 64 + d.val); omega)
  rw [e]
  exact product_is_entry 1 x W P0 P1 b q h0 h1 h r d

/-- The block indices of this output at a grid point, against the activations' and the weights' (decided over the 128 points):
    the output's block is (batch, 0, tile, 0), the activations' is (batch, tile, 0), the weights' is (0, 0). -/
theorem index_facts3 : ∀ t : Fin cfg0.N,
    win0_0.index t (0 : Fin 3) = win0_3.index t (0 : Fin 4) ∧ win0_0.index t (1 : Fin 3) = win0_3.index t (2 : Fin 4)
    ∧ win0_0.index t (2 : Fin 3) = 0 ∧ win0_1.index t (0 : Fin 2) = 0 ∧ win0_1.index t (1 : Fin 2) = 0
    ∧ win0_3.index t (0 : Fin 4) < 8 ∧ win0_3.index t (1 : Fin 4) = 0 ∧ win0_3.index t (2 : Fin 4) < 16 ∧ win0_3.index t (3 : Fin 4) = 0 :=
  (by decide +kernel : ∀ t : Fin grid0.N, _)

/-- Every (batch, tile) pair is some grid point's block. -/
theorem index_onto3 : ∀ (b : Fin 8) (q : Fin 16), ∃ t : Fin cfg0.N,
    win0_3.index t (0 : Fin 4) = b.val ∧ win0_3.index t (2 : Fin 4) = q.val :=
  (by decide +kernel : ∀ (b : Fin 8) (q : Fin 16), ∃ t : Fin grid0.N, win0_3.index t (0 : Fin 4) = b.val ∧ win0_3.index t (2 : Fin 4) = q.val)

/-- WHAT GRID POINT t WRITES BACK is its block of projection 1 of the argument arrays. -/
theorem flushed3_eq (c : Dev nD) (t : Fin cfg0.N) :
    (dats m 0 c).flushed 3 t = ((cfg0.win 3).blk t).view.read (Elt Ideal)
      (heads 1 (m ((c : Thread nD τ).loc main_arg0)) (m ((c : Thread nD τ).loc main_arg1))) := by
  obtain ⟨e00, e01, e02, e10, e11, lb, z1, lq, z3⟩ := index_facts3 t
  rw [flushed3]
  funext y
  have hy0 : (y 0).val < 1 := (y 0).isLt
  show out0_3 (iblk m c 0 t) (iblk m c 1 t) _ = heads 1 (m ((c : Thread nD τ).loc main_arg0)) (m ((c : Thread nD τ).loc main_arg1)) (((cfg0.win 3).blk t).view.emb y)
  refine tile3_is_heads _ _ (iblk m c 0 t) (iblk m c 1 t) ⟨win0_3.index t (0 : Fin 4), lb⟩ ⟨win0_3.index t (2 : Fin 4), lq⟩
    (fun r k => acts_tile m c t _ _ e00 e01 e02 r k) (fun e k => weights_whole m c t e10 e11 e k) _ _ ?_ ?_ ?_ ?_
  · show win0_3.index t (0 : Fin 4) * 1 + 1 * (y 0).val = win0_3.index t (0 : Fin 4); omega
  · show win0_3.index t (1 : Fin 4) * 16 + 1 * (y 1).val = (y 1).val; omega
  · show win0_3.index t (2 : Fin 4) * 256 + 1 * (y 2).val = win0_3.index t (2 : Fin 4) * 256 + (y 2).val; omega
  · show win0_3.index t (3 : Fin 4) * 64 + 1 * (y 3).val = (y 3).val; omega

/-- An index of the result array lies in grid point t's block iff each coordinate lies in the block's range on its axis. -/
theorem mem_block3 (t : Fin cfg0.N) (i : Heads.Idx) :
    i ∈ ((cfg0.win 3).blk t).view.set ↔ ∀ a : Fin 4, win0_3.index t a * S1x16x256x64.size a ≤ (i a).val
      ∧ (i a).val < win0_3.index t a * S1x16x256x64.size a + S1x16x256x64.size a := by
  show i ∈ ((View.whole main_v1_1).slice (win0_3.rect t)).set ↔ _
  rw [View.set_slice_whole, Rect.mem_set_unit]
  exact Iff.rfl

/-- The blocks tile the result array: index (b, h, n, d) lies in the block of batch element b and tile n / 256. -/
theorem cover3 (i : Heads.Idx) : ∃ t : Fin cfg0.N, (cfg0.win 3).flush t = true ∧ i ∈ ((cfg0.win 3).blk t).view.set := by
  have h0 : (i 0).val < 8 := (i 0).isLt
  have h1 : (i 1).val < 16 := (i 1).isLt
  have h2 : (i 2).val < 4096 := (i 2).isLt
  have h3 : (i 3).val < 64 := (i 3).isLt
  obtain ⟨t, tb, tq⟩ := index_onto3 ⟨(i 0).val, h0⟩ ⟨(i 2).val / 256, by omega⟩
  have tb' : win0_3.index t (0 : Fin 4) = (i 0).val := tb
  have tq' : win0_3.index t (2 : Fin 4) = (i 2).val / 256 := tq
  obtain ⟨-, -, -, -, -, -, z1, -, z3⟩ := index_facts3 t
  refine ⟨t, flush0_3 t, ?_⟩
  rw [mem_block3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 256 ≤ (i 2).val ∧ (i 2).val < win0_3.index t (2 : Fin 4) * 256 + 256; omega
  | ⟨3, _⟩ => show win0_3.index t (3 : Fin 4) * 64 ≤ (i 3).val ∧ (i 3).val < win0_3.index t (3 : Fin 4) * 64 + 64; omega

/-- So after the run this result array IS projection 1 of the argument arrays. -/
theorem final3 (c : Dev nD) : (dats m 0 c).arrAt 3 cfg0.N
    = heads 1 (m ((c : Thread nD τ).loc main_arg0)) (m ((c : Thread nD τ).loc main_arg1)) :=
  (dats m 0 c).arrAt_eq_of_cover 3 _ (fun t _ => flushed3_eq m c t) cover3

end Cert.KernelIdeal.HeadArrays

end
-- ==== Proof.ValueArray.lean ====
/-
  The value array after the kernel's run is projection 2 of the specification.

  At grid point (b, q) the body writes, into this result's tile of shape [1, 16, 256, 64], the product's columns
  2048 + h * 64 + d (h < 16, d < 64) of row r at tile entry (0, h, r, d): the column block is regrouped into heads and
  the position and head axes are swapped. By the product's entry that is the specification's entry (b, h, q * 256 + r, d) of
  projection 2; the tile is flushed to block (b, 0, q, 0) of the [8, 16, 4096, 64] array, where entry (0, h, r, d) lands on
  index (b, h, q * 256 + r, d); and the 128 blocks tile the array — index (b, h, n, d) lies in the block of (b, n / 256).
  So the array after the run is projection 2, index by index.
-/
import proofs.«124951_j53575422050708_2_alg».proof.Proof.KernelIdealValue
import proofs.«124951_j53575422050708_2_alg».proof.Proof.MatmulEntry
import proofs.«124951_j53575422050708_2_alg».proof.Proof.TileInputs
import Idealize.ShloMosaic.Lib.Pipeline.Value

noncomputable section

open scoped BigOperators

namespace Cert.KernelIdeal.HeadArrays

open Cert.KernelIdeal Cert.KernelIdeal.Gen Cert.KernelIdeal.ValueP Cert.KernelIdeal.MatmulEntry
open Idealize.ShloMosaic Idealize.ShloMosaic.TcCoe Idealize.SL.Sem Idealize.ShloMosaic.ValueIdx Cert.QkvHeads
open Idealize.ShloMosaic.Pipeline (Dat)

variable (m : (ℓ : Loc nD τ sig) → Buf (Elt Ideal) ℓ) (ρ : Dev nD → PrngReg)

/-! ## Output window 4: projection 2 (value) -/

/-- What the body leaves in this output's tile buffer, entry by entry: the product's column block 2048 …, regrouped into heads
    and with positions and heads swapped, is the specification's entry — for ANY tile P0 that holds positions q * 256 … of
    batch element b, and any P1 that holds the weights. The index i is where the tile entry y lands in the result array. -/
theorem tile4_is_heads (x : FVec Ideal Acts .f32) (W : FVec Ideal Weights .f32)
    (P0 : Vec Ideal S1x256x1024 .f32) (P1 : Vec Ideal S3072x1024 .bf16) (b : Fin 8) (q : Fin 16)
    (h0 : ∀ (r : Fin 256) (k : Fin 1024), P0 (ix3 (0 : Fin 1) r k) = x (ix3 b (tileRow q r) k))
    (h1 : ∀ (e : Fin 3072) (k : Fin 1024), P1 (ix2 e k) = W (ix2 e k))
    (y : S1x16x256x64.Idx) (i : Heads.Idx)
    (hi0 : (i 0).val = b.val) (hi1 : (i 1).val = (y 1).val) (hi2 : (i 2).val = q.val * 256 + (y 2).val) (hi3 : (i 3).val = (y 3).val) :
    out0_4 (F := Ideal) P0 P1 y = heads 2 x W i := by
  obtain ⟨u, h, r, d, rfl⟩ : ∃ (u : Fin 1) (h : Fin 16) (r : Fin 256) (d : Fin 64), y = ix4 u h r d := ⟨y 0, y 1, y 2, y 3, eq_ix4 y⟩
  obtain rfl : i = ix4 b h (tileRow q r) d := funext fun a => Fin.ext (by
    match a with
    | ⟨0, _⟩ => exact hi0
    | ⟨1, _⟩ => exact hi1
    | ⟨2, _⟩ => exact hi2
    | ⟨3, _⟩ => exact hi3)
  rw [heads_ix4]
  unfold out0_4
  rw [canon4_eq]
  show k0_pay1 (View.ld P0 r0_0) (View.ld P1 r0_1) (ix4_0 (ix4 u h r d)) = _
  rw [View.ld_unit_zero (S := S1x256x1024) zeros3, View.ld_unit_zero (S := S3072x1024) zeros2]
  have e : ix4_0 (ix4 u h r d) = ix2 r (wrow 2 h d) := funext fun a => Fin.ext (by
    match a with
    | ⟨0, _⟩ => rfl
    | ⟨1, _⟩ => show h.val * 64 + d.val + 2048 = 2 * 1024 + (h.val * 64 + d.val); omega)
  rw [e]
  exact product_is_entry 2 x W P0 P1 b q h0 h1 h r d

/-- The block indices of this output at a grid point, against the activations' and the weights' (decided over the 128 points):
    the output's block is (batch, 0, tile, 0), the activations' is (batch, tile, 0), the weights' is (0, 0). -/
theorem index_facts4 : ∀ t : Fin cfg0.N,
    win0_0.index t (0 : Fin 3) = win0_4.index t (0 : Fin 4) ∧ win0_0.index t (1 : Fin 3) = win0_4.index t (2 : Fin 4)
    ∧ win0_0.index t (2 : Fin 3) = 0 ∧ win0_1.index t (0 : Fin 2) = 0 ∧ win0_1.index t (1 : Fin 2) = 0
    ∧ win0_4.index t (0 : Fin 4) < 8 ∧ win0_4.index t (1 : Fin 4) = 0 ∧ win0_4.index t (2 : Fin 4) < 16 ∧ win0_4.index t (3 : Fin 4) = 0 :=
  (by decide +kernel : ∀ t : Fin grid0.N, _)

/-- Every (batch, tile) pair is some grid point's block. -/
theorem index_onto4 : ∀ (b : Fin 8) (q : Fin 16), ∃ t : Fin cfg0.N,
    win0_4.index t (0 : Fin 4) = b.val ∧ win0_4.index t (2 : Fin 4) = q.val :=
  (by decide +kernel : ∀ (b : Fin 8) (q : Fin 16), ∃ t : Fin grid0.N, win0_4.index t (0 : Fin 4) = b.val ∧ win0_4.index t (2 : Fin 4) = q.val)

/-- WHAT GRID POINT t WRITES BACK is its block of projection 2 of the argument arrays. -/
theorem flushed4_eq (c : Dev nD) (t : Fin cfg0.N) :
    (dats m 0 c).flushed 4 t = ((cfg0.win 4).blk t).view.read (Elt Ideal)
      (heads 2 (m ((c : Thread nD τ).loc main_arg0)) (m ((c : Thread nD τ).loc main_arg1))) := by
  obtain ⟨e00, e01, e02, e10, e11, lb, z1, lq, z3⟩ := index_facts4 t
  rw [flushed4]
  funext y
  have hy0 : (y 0).val < 1 := (y 0).isLt
  show out0_4 (iblk m c 0 t) (iblk m c 1 t) _ = heads 2 (m ((c : Thread nD τ).loc main_arg0)) (m ((c : Thread nD τ).loc main_arg1)) (((cfg0.win 4).blk t).view.emb y)
  refine tile4_is_heads _ _ (iblk m c 0 t) (iblk m c 1 t) ⟨win0_4.index t (0 : Fin 4), lb⟩ ⟨win0_4.index t (2 : Fin 4), lq⟩
    (fun r k => acts_tile m c t _ _ e00 e01 e02 r k) (fun e k => weights_whole m c t e10 e11 e k) _ _ ?_ ?_ ?_ ?_
  · show win0_4.index t (0 : Fin 4) * 1 + 1 * (y 0).val = win0_4.index t (0 : Fin 4); omega
  · show win0_4.index t (1 : Fin 4) * 16 + 1 * (y 1).val = (y 1).val; omega
  · show win0_4.index t (2 : Fin 4) * 256 + 1 * (y 2).val = win0_4.index t (2 : Fin 4) * 256 + (y 2).val; omega
  · show win0_4.index t (3 : Fin 4) * 64 + 1 * (y 3).val = (y 3).val; omega

/-- An index of the result array lies in grid point t's block iff each coordinate lies in the block's range on its axis. -/
theorem mem_block4 (t : Fin cfg0.N) (i : Heads.Idx) :
    i ∈ ((cfg0.win 4).blk t).view.set ↔ ∀ a : Fin 4, win0_4.index t a * S1x16x256x64.size a ≤ (i a).val
      ∧ (i a).val < win0_4.index t a * S1x16x256x64.size a + S1x16x256x64.size a := by
  show i ∈ ((View.whole main_v1_2).slice (win0_4.rect t)).set ↔ _
  rw [View.set_slice_whole, Rect.mem_set_unit]
  exact Iff.rfl

/-- The blocks tile the result array: index (b, h, n, d) lies in the block of batch element b and tile n / 256. -/
theorem cover4 (i : Heads.Idx) : ∃ t : Fin cfg0.N, (cfg0.win 4).flush t = true ∧ i ∈ ((cfg0.win 4).blk t).view.set := by
  have h0 : (i 0).val < 8 := (i 0).isLt
  have h1 : (i 1).val < 16 := (i 1).isLt
  have h2 : (i 2).val < 4096 := (i 2).isLt
  have h3 : (i 3).val < 64 := (i 3).isLt
  obtain ⟨t, tb, tq⟩ := index_onto4 ⟨(i 0).val, h0⟩ ⟨(i 2).val / 256, by omega⟩
  have tb' : win0_4.index t (0 : Fin 4) = (i 0).val := tb
  have tq' : win0_4.index t (2 : Fin 4) = (i 2).val / 256 := tq
  obtain ⟨-, -, -, -, -, -, z1, -, z3⟩ := index_facts4 t
  refine ⟨t, flush0_4 t, ?_⟩
  rw [mem_block4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- So after the run this result array IS projection 2 of the argument arrays. -/
theorem final4 (c : Dev nD) : (dats m 0 c).arrAt 4 cfg0.N
    = heads 2 (m ((c : Thread nD τ).loc main_arg0)) (m ((c : Thread nD τ).loc main_arg1)) :=
  (dats m 0 c).arrAt_eq_of_cover 4 _ (fun t _ => flushed4_eq m c t) cover4

end Cert.KernelIdeal.HeadArrays

end
-- ==== Proof.KernelRun.lean ====
/-
  The kernel's run, read: every weakly fair execution terminates with the three result arrays at the three projections of
  the specification — query, key, value — of the argument arrays as launched, and the arguments unchanged. It is the frame
  run with each result array named, followed by the three whole-array equations.
-/
import proofs.«124951_j53575422050708_2_alg».proof.Proof.QueryArray
import proofs.«124951_j53575422050708_2_alg».proof.Proof.KeyArray
import proofs.«124951_j53575422050708_2_alg».proof.Proof.ValueArray

noncomputable section

namespace Cert.KernelIdeal.HeadArrays

open Cert.KernelIdeal Cert.KernelIdeal.Gen Cert.KernelIdeal.ValueP
open Idealize.ShloMosaic Idealize.ShloMosaic.TcCoe Idealize.SL.Sem Cert.QkvHeads

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v1_0) = heads 0 (m ((c : Thread nD τ).loc main_arg0)) (m ((c : Thread nD τ).loc main_arg1))
      ∧ r.2.mem ((c : Thread nD τ).loc main_v1_1) = heads 1 (m ((c : Thread nD τ).loc main_arg0)) (m ((c : Thread nD τ).loc main_arg1))
      ∧ r.2.mem ((c : Thread nD τ).loc main_v1_2) = heads 2 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c),
      (h c).2.2.1.trans (final4 m c), (h c).2.2.2⟩)
    (run_blocks m ρ)

end Cert.KernelIdeal.HeadArrays

end
-- ==== Proof.RefHeads.lean ====
/-
  The reference computes the specification.

  The reference forms the whole product x · Wᵀ as one array of shape [8, 4096, 3072], cuts its last axis into three blocks of
  1024 columns, splits each block's columns into 16 heads of 64 channels ([8, 4096, 16, 64]) and swaps the position and head
  axes. Read at a result index (b, h, n, d): the swap sends it to (b, n, h, d); the split sends that to column h * 64 + d of
  the block (row-major position divided and reduced by the literal extents); the cut adds the block's first column,
  s * 1024. The product at (b, n, e) is the sum over k of x[b, n, k] * W[e, k]. Composed, that is the specification's entry.
-/
import proofs.«124951_j53575422050708_2_alg».proof.Proof.Gen.ReferenceIdeal.Read
import proofs.«124951_j53575422050708_2_alg».proof.Proof.HeadsSpec

noncomputable section

open scoped BigOperators

namespace Cert.ReferenceIdeal.RefHeads

open Cert.ReferenceIdeal Cert.ReferenceIdeal.Read Idealize.ShloMosaic Idealize.ShloMosaic.ValueIdx Cert.QkvHeads

/-- The whole product at position (b, n) and column e: the inner product of that position's activations with weight row e. -/
theorem product_at (x0 : FVec Ideal Acts .f32) (x1 : FVec Ideal Weights .f32) (b : Fin 8) (n : Fin 4096) (e : Fin 3072) :
    val_main_v0 (F := Ideal) x0 x1 (ix3 b n e) = ∑ k : Fin 1024, x0 (ix3 b n k) * x1 (ix2 e k) := by
  rw [val_main_v0_apply]
  refine Finset.sum_congr rfl fun k _ => ?_
  have el : lidx_main_v0 (ix3 b n e) k = ix3 b n k :=
    funext fun a => by match a with | ⟨0, _⟩ => rfl | ⟨1, _⟩ => rfl | ⟨2, _⟩ => rfl
  have er : ridx_main_v0 (ix3 b n e) k = ix2 e k :=
    funext fun a => by match a with | ⟨0, _⟩ => rfl | ⟨1, _⟩ => rfl
  rw [el, er]

/-- Projection 0 (query): the transposed, reshaped column block 0 … 1023 of the product, read at (b, h, n, d), is
    the product's entry at position (b, n) and column h * 64 + d. -/
theorem query_at (x0 : FVec Ideal Acts .f32) (x1 : FVec Ideal Weights .f32) (b : Fin 8) (h : Fin 16) (n : Fin 4096) (d : Fin 64) :
    val_main_v5 (F := Ideal) x0 x1 (ix4 b h n d) = val_main_v0 (F := Ideal) x0 x1 (ix3 b n (wrow 0 h d)) := by
  have hb := b.isLt; have hh := h.isLt; have hn := n.isLt; have hd := d.isLt
  rw [val_main_v5_apply, val_main_v4_apply, val_main_v1_apply]
  refine congrArg (val_main_v0 (F := Ideal) x0 x1) (funext fun a => Fin.ext ?_)
  match a with
  | ⟨0, _⟩ => show (((b.val * 4096 + n.val) * 16 + h.val) * 64 + d.val) / 4194304 = b.val; omega
  | ⟨1, _⟩ => show (((b.val * 4096 + n.val) * 16 + h.val) * 64 + d.val) / 1024 % 4096 = n.val; omega
  | ⟨2, _⟩ => show (((b.val * 4096 + n.val) * 16 + h.val) * 64 + d.val) % 1024 = 0 * 1024 + (h.val * 64 + d.val); omega

/-- So the reference's query result is projection 0 of the specification. -/
theorem query_eq (x0 : FVec Ideal Acts .f32) (x1 : FVec Ideal Weights .f32) :
    val_main_v5 (F := Ideal) x0 x1 = heads 0 x0 x1 :=
  ext_heads fun b h n d => by rw [query_at, product_at, heads_ix4]; rfl

/-- Projection 1 (key): the transposed, reshaped column block 1024 … 2047 of the product, read at (b, h, n, d), is
    the product's entry at position (b, n) and column 1024 + h * 64 + d. -/
theorem key_at (x0 : FVec Ideal Acts .f32) (x1 : FVec Ideal Weights .f32) (b : Fin 8) (h : Fin 16) (n : Fin 4096) (d : Fin 64) :
    val_main_v7 (F := Ideal) x0 x1 (ix4 b h n d) = val_main_v0 (F := Ideal) x0 x1 (ix3 b n (wrow 1 h d)) := by
  have hb := b.isLt; have hh := h.isLt; have hn := n.isLt; have hd := d.isLt
  rw [val_main_v7_apply, val_main_v6_apply, val_main_v2_apply]
  refine congrArg (val_main_v0 (F := Ideal) x0 x1) (funext fun a => Fin.ext ?_)
  match a with
  | ⟨0, _⟩ => show (((b.val * 4096 + n.val) * 16 + h.val) * 64 + d.val) / 4194304 = b.val; omega
  | ⟨1, _⟩ => show (((b.val * 4096 + n.val) * 16 + h.val) * 64 + d.val) / 1024 % 4096 = n.val; omega
  | ⟨2, _⟩ => show 1024 + (((b.val * 4096 + n.val) * 16 + h.val) * 64 + d.val) % 1024 = 1 * 1024 + (h.val * 64 + d.val); omega

/-- So the reference's key result is projection 1 of the specification. -/
theorem key_eq (x0 : FVec Ideal Acts .f32) (x1 : FVec Ideal Weights .f32) :
    val_main_v7 (F := Ideal) x0 x1 = heads 1 x0 x1 :=
  ext_heads fun b h n d => by rw [key_at, product_at, heads_ix4]; rfl

/-- Projection 2 (value): the transposed, reshaped column block 2048 … 3071 of the product, read at (b, h, n, d), is
    the product's entry at position (b, n) and column 2048 + h * 64 + d. -/
theorem value_at (x0 : FVec Ideal Acts .f32) (x1 : FVec Ideal Weights .f32) (b : Fin 8) (h : Fin 16) (n : Fin 4096) (d : Fin 64) :
    val_main_v9 (F := Ideal) x0 x1 (ix4 b h n d) = val_main_v0 (F := Ideal) x0 x1 (ix3 b n (wrow 2 h d)) := by
  have hb := b.isLt; have hh := h.isLt; have hn := n.isLt; have hd := d.isLt
  rw [val_main_v9_apply, val_main_v8_apply, val_main_v3_apply]
  refine congrArg (val_main_v0 (F := Ideal) x0 x1) (funext fun a => Fin.ext ?_)
  match a with
  | ⟨0, _⟩ => show (((b.val * 4096 + n.val) * 16 + h.val) * 64 + d.val) / 4194304 = b.val; omega
  | ⟨1, _⟩ => show (((b.val * 4096 + n.val) * 16 + h.val) * 64 + d.val) / 1024 % 4096 = n.val; omega
  | ⟨2, _⟩ => show 2048 + (((b.val * 4096 + n.val) * 16 + h.val) * 64 + d.val) % 1024 = 2 * 1024 + (h.val * 64 + d.val); omega

/-- So the reference's value result is projection 2 of the specification. -/
theorem value_eq (x0 : FVec Ideal Acts .f32) (x1 : FVec Ideal Weights .f32) :
    val_main_v9 (F := Ideal) x0 x1 = heads 2 x0 x1 :=
  ext_heads fun b h n d => by rw [value_at, product_at, heads_ix4]; rfl

end Cert.ReferenceIdeal.RefHeads

end
-- ==== Proof.lean ====
/-
  A fused query / key / value projection, head by head, against its einsum reference.

  Both programs take activations x of shape [8, 4096, 1024] and a weight matrix W of shape [3072, 1024] whose rows are the
  query, key and value projections stacked, each 16 heads of 64 channels, and return three arrays of shape [8, 16, 4096, 64].
  On extended reals both compute, for s = 0, 1, 2,

      out_s[b, h, n, d] = sum over k < 1024 of  x[b, n, k] * W[s * 1024 + h * 64 + d, k].

  The kernel gets there tile by tile: at grid point (b, q) it multiplies positions q * 256 … q * 256 + 255 of batch element
  b against the whole weight matrix from a zero accumulator, cuts the 3072 columns into three blocks, regroups each block's
  columns into heads, swaps positions and heads, and writes the three tiles to block (b, 0, q, 0) of their arrays; the
  blocks tile the arrays. The reference forms the whole product, cuts, regroups and swaps whole arrays. The two changes of
  float format the kernel makes on the way into the product are the identity on extended reals, 0 + s = s, and a finite sum
  of extended reals does not depend on its order or grouping — so the equality needs no finiteness of the inputs, and the
  precondition is never opened.

  The frames of the two kernel programs are the generated ones; the reference's is its generated run with the results
  dropped. The idealization rewrote nothing, so there is nothing to preserve.
-/
import proofs.«124951_j53575422050708_2_alg».proof.Defs
import proofs.«124951_j53575422050708_2_alg».proof.Proof.Gen.Kernel
import proofs.«124951_j53575422050708_2_alg».proof.Proof.Gen.Kernel.Frame
import proofs.«124951_j53575422050708_2_alg».proof.Proof.Gen.KernelIdeal
import proofs.«124951_j53575422050708_2_alg».proof.Proof.Gen.KernelIdeal.Frame
import proofs.«124951_j53575422050708_2_alg».proof.Proof.Gen.ReferenceIdeal
import proofs.«124951_j53575422050708_2_alg».proof.Proof.Gen.Pre_finite_inputs
import proofs.«124951_j53575422050708_2_alg».proof.Proof.Gen.ReferenceIdeal.Run
import proofs.«124951_j53575422050708_2_alg».proof.Proof.Gen.ReferenceIdeal.Read
import proofs.«124951_j53575422050708_2_alg».proof.Proof.KernelRun
import proofs.«124951_j53575422050708_2_alg».proof.Proof.RefHeads

noncomputable section

namespace Cert.Proof

open Idealize.ShloMosaic Idealize.ShloMosaic.TcCoe Idealize.SL.Sem Cert.QkvHeads

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the three results dropped. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- Both runs end with the three result arrays at the three projections of the specification, taken of the kernel's
    argument arrays: the kernel's by its run read tile by tile, the reference's by its run read operation by operation, its
    arguments being the kernel's. -/
theorem algebraic : Cert.algebraic_KernelIdeal_ReferenceIdeal := by
  intro m ρ m' ρ' _ hagree
  refine ⟨_, _, _, Cert.KernelIdeal.HeadArrays.run m ρ, ?_⟩
  refine (θ_run Cert.ReferenceIdeal.defs _ _).mono (fun _ h c => ?_) (Cert.ReferenceIdeal.Value.run (F := Ideal) m' ρ')
  obtain ⟨hq, hk, hv, ha0, ha1⟩ := h c
  refine ⟨hq.trans ?_, hk.trans ?_, hv.trans ?_, ha0, ha1⟩
  · rw [Cert.ReferenceIdeal.Read.val_main_v5_eq, Cert.ReferenceIdeal.RefHeads.query_eq, (hagree c).1, (hagree c).2]
  · rw [Cert.ReferenceIdeal.Read.val_main_v7_eq, Cert.ReferenceIdeal.RefHeads.key_eq, (hagree c).1, (hagree c).2]
  · rw [Cert.ReferenceIdeal.Read.val_main_v9_eq, Cert.ReferenceIdeal.RefHeads.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
